-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x80 : S_.BroadcastsInDim S128x80 (![] : Fin 0 → Fin S128x80.rank)
  reducesTo_S128x80_S_d0_1 : S128x80.ReducesTo [0, 1] S_
  bcast_S_S80 : S_.BroadcastsInDim S80 (![] : Fin 0 → Fin S80.rank)
  reducesTo_S80_S_d0 : S80.ReducesTo [0] S_
  bcast_S_S80x4 : S_.BroadcastsInDim S80x4 (![] : Fin 0 → Fin S80x4.rank)
  reducesTo_S80x4_S_d0_1 : S80x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S80x4 .f32) (main_arg5 : FVec F S4 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x4 .f32 := Host.absf main_arg4
  let main_cst_6 : FVec F S_ .f32 := constant S_ .f32 0x7F800000#32
  let main_v20 : FVec F S80x4 .f32 := broadcastInDim S80x4 ![] bcast_S_S80x4 main_cst_6
  let main_v21 : IVec S80x4 1 := cmpf .olt main_v19 main_v20
  let main_c_7 : IVec S_ 1 := constantI S_ 1 1#1
  let main_v22 : IVec S_ 1 := (fun x v => Host.reduce IntOp.andi x v reducesTo_S80x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x80 .f32) (main_arg3 : FVec F S80 .f32) (main_arg4 : FVec F S80x4 .f32) (main_arg5 : FVec F S4 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x80 .f32 := Host.absf main_arg2
  let main_cst_2 : FVec F S_ .f32 := constant S_ .f32 0x7F800000#32
  let main_v10 : FVec F S128x80 .f32 := broadcastInDim S128x80 ![] bcast_S_S128x80 main_cst_2
  let main_v11 : IVec S128x80 1 := cmpf .olt main_v9 main_v10
  let main_c_3 : IVec S_ 1 := constantI S_ 1 1#1
  let main_v12 : IVec S_ 1 := (fun x v => Host.reduce IntOp.andi x v reducesTo_S128x80_S_d0_1 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S1x80 : Shape := ⟨2, ![1, 80]⟩
abbrev S1x4 : Shape := ⟨2, ![1, 4]⟩
abbrev S10000x4 : Shape := ⟨2, ![10000, 4]⟩
abbrev S400x10000 : Shape := ⟨2, ![400, 10000]⟩
abbrev S400x4 : Shape := ⟨2, ![400, 4]⟩
abbrev S10000x80 : Shape := ⟨2, ![10000, 80]⟩
abbrev S400x80 : Shape := ⟨2, ![400, 80]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x80, .f32⟩
  | .hbm, ⟨3, _⟩ => ⟨S80, .f32⟩
  | .hbm, ⟨4, _⟩ => ⟨S80x4, .f32⟩
  | .hbm, ⟨5, _⟩ => ⟨S4, .f32⟩
  | .hbm, ⟨6, _⟩ => ⟨S1x80, .f32⟩
  | .hbm, ⟨7, _⟩ => ⟨S1x4, .f32⟩
  | .hbm, ⟨8, _⟩ => ⟨S10000x4, .f32⟩
  | .local _ .vmem, ⟨0, _⟩ => ⟨S10000x128, .f32⟩
  | .local _ .vmem, ⟨1, _⟩ => ⟨S128x80, .f32⟩
  | .local _ .vmem, ⟨2, _⟩ => ⟨S1x80, .f32⟩
  | .local _ .vmem, ⟨3, _⟩ => ⟨S80x4, .f32⟩
  | .local _ .vmem, ⟨4, _⟩ => ⟨S1x4, .f32⟩
  | .local _ .vmem, ⟨5, _⟩ => ⟨S400x10000, .f32⟩
  | .local _ .vmem, ⟨6, _⟩ => ⟨S400x10000, .f32⟩
  | .local _ .vmem, ⟨7, _⟩ => ⟨S400x4, .f32⟩
  | .local _ .vmem, ⟨8, _⟩ => ⟨S400x4, .f32⟩
  | .local _ .vmem, ⟨9, _⟩ => ⟨S10000x80, .bf16⟩
  | .local _ .vmem, ⟨10, _⟩ => ⟨S10000x4, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S80x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S400x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S80_S1x80 : S80.ShapeCasts S1x80
  shapeCasts_S4_S1x4 : S4.ShapeCasts S1x4
  inb_S10000x128_S10000x128_0_0 : ∀ a, (![0, 0] : Fin 2 → Nat) a + S10000x128.size a ≤ S10000x128.size a
  h_S10000x128 : 0 < S10000x128.numel
  inb_S128x80_S128x80_0_0 : ∀ a, (![0, 0] : Fin 2 → Nat) a + S128x80.size a ≤ S128x80.size a
  h_S128x80 : 0 < S128x80.numel
  bitsLt_bf16_f32 : FTy.bits .bf16 < FTy.bits .f32
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  packedbf16_S10000x80_S10000x80_0_0 : (Rect.unit (s := S10000x80) ![0, 0] S10000x80.size inb_S10000x80_S10000x80_0_0).PackedRows (EltTy.packing .bf16)
  inb_S400x10000_S400x10000_0_0 : ∀ a, (![0, 0] : Fin 2 → Nat) a + S400x10000.size a ≤ S400x10000.size a
  h_S400x10000 : 0 < S400x10000.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S400x80 : S1x80.Broadcasts S400x80
  inb_S80x4_S80x4_0_0 : ∀ a, (![0, 0] : Fin 2 → Nat) a + S80x4.size a ≤ S80x4.size a
  h_S80x4 : 0 < S80x4.numel
  h_S400x4 : 0 < S400x4.numel
  shapeCasts_S400x4_S400x4 : S400x4.ShapeCasts S400x4
  inb_S10000x4_S10000x4_0_0 : ∀ a, (![0, 0] : Fin 2 → Nat) a + S10000x4.size a ≤ S10000x4.size a
  h_S10000x4 : 0 < S10000x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S400x4 : S1x4.Broadcasts S400x4
  inb_S400x4_S400x4_0_0 : ∀ a, (![0, 0] : Fin 2 → Nat) a + S400x4.size a ≤ S400x4.size a
  dot_S10000x128_S128x80_S10000x80_1_0_0_1_n_n_wf : DotDims.WF S10000x128 S128x80 S10000x80 [1] [0] [0] [1] [] []
  dot_S400x10000_S10000x80_S400x80_1_0_0_1_n_n_wf : DotDims.WF S400x10000 S10000x80 S400x80 [1] [0] [0] [1] [] []
  dot_S400x80_S80x4_S400x4_1_0_0_1_n_n_wf : DotDims.WF S400x80 S80x4 S400x4 [1] [0] [0] [1] [] []
  dot_S400x10000_S10000x4_S400x4_1_0_0_1_n_n_wf : DotDims.WF S400x10000 S10000x4 S400x4 [1] [0] [0] [1] [] []
  hrank0 : 0 < grid0.rank
  k0_off1_inb : ∀ i : grid0.Coords, ∀ (k0_h2 : k0_cond2 i = 1#1), ∀ a, (k0_off1 i) a + S400x4.size a ≤ S10000x4.size a
  k0_off1_packedbf16 : ∀ i : grid0.Coords, ∀ (k0_h2 : k0_cond2 i = 1#1), (Rect.unit (s := S10000x4) (k0_off1 i) S400x4.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x80.size a ≤ S128x80.size a
  hwx0_1 : ∀ i : grid0.Coords, EltTy.bits .f32 = 32 ∨ (Rect.block (s := S128x80) S128x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x4.size a ≤ S80x4.size a
  hwx0_3 : ∀ i : grid0.Coords, EltTy.bits .f32 = 32 ∨ (Rect.block (s := S80x4) S80x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x4.size a ≤ S10000x4.size a
  hwx0_6 : ∀ i : grid0.Coords, EltTy.bits .f32 = 32 ∨ (Rect.block (s := S10000x4) S400x4.size (cc0_transform_6 i) (hinb0_6 i)).WholeWords (EltTy.packing .f32)

variable [Facts₀]

def dot_S10000x128_S128x80_S10000x80_1_0_0_1_n_n : DotDims S10000x128 S128x80 S10000x80 where
  lhsContracting := [1]
  rhsContracting := [0]
  lhsNonContracting := [0]
  rhsNonContracting := [1]
  lhsBatch := []
  rhsBatch := []
  wf := dot_S10000x128_S128x80_S10000x80_1_0_0_1_n_n_wf
def dot_S400x10000_S10000x80_S400x80_1_0_0_1_n_n : DotDims S400x10000 S10000x80 S400x80 where
  lhsContracting := [1]
  rhsContracting := [0]
  lhsNonContracting := [0]
  rhsNonContracting := [1]
  lhsBatch := []
  rhsBatch := []
  wf := dot_S400x10000_S10000x80_S400x80_1_0_0_1_n_n_wf
def dot_S400x80_S80x4_S400x4_1_0_0_1_n_n : DotDims S400x80 S80x4 S400x4 where
  lhsContracting := [1]
  rhsContracting := [0]
  lhsNonContracting := [0]
  rhsNonContracting := [1]
  lhsBatch := []
  rhsBatch := []
  wf := dot_S400x80_S80x4_S400x4_1_0_0_1_n_n_wf
def dot_S400x10000_S10000x4_S400x4_1_0_0_1_n_n : DotDims S400x10000 S10000x4 S400x4 where
  lhsContracting := [1]
  rhsContracting := [0]
  lhsNonContracting := [0]
  rhsNonContracting := [1]
  lhsBatch := []
  rhsBatch := []
  wf := dot_S400x10000_S10000x4_S400x4_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S80x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S10000x80 : Shape := ⟨2, ![10000, 80]⟩
abbrev S1x80 : Shape := ⟨2, ![1, 80]⟩
abbrev S_ : Shape := ⟨0, ![]⟩
abbrev S10000x4 : Shape := ⟨2, ![10000, 4]⟩
abbrev S1x4 : Shape := ⟨2, ![1, 4]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x80, .f32⟩
  | .hbm, ⟨3, _⟩ => ⟨S80, .f32⟩
  | .hbm, ⟨4, _⟩ => ⟨S80x4, .f32⟩
  | .hbm, ⟨5, _⟩ => ⟨S4, .f32⟩
  | .hbm, ⟨6, _⟩ => ⟨S10000x80, .f32⟩
  | .hbm, ⟨7, _⟩ => ⟨S10000x80, .f32⟩
  | .hbm, ⟨8, _⟩ => ⟨S1x80, .f32⟩
  | .hbm, ⟨9, _⟩ => ⟨S10000x80, .f32⟩
  | .hbm, ⟨10, _⟩ => ⟨S10000x80, .f32⟩
  | .hbm, ⟨11, _⟩ => ⟨S_, .f32⟩
  | .hbm, ⟨12, _⟩ => ⟨S10000x80, .f32⟩
  | .hbm, ⟨13, _⟩ => ⟨S10000x80, .f32⟩
  | .hbm, ⟨14, _⟩ => ⟨S10000x4, .f32⟩
  | .hbm, ⟨15, _⟩ => ⟨S10000x4, .f32⟩
  | .hbm, ⟨16, _⟩ => ⟨S1x4, .f32⟩
  | .hbm, ⟨17, _⟩ => ⟨S10000x4, .f32⟩
  | .hbm, ⟨18, _⟩ => ⟨S10000x4, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S80_S1x80_1 : S80.BroadcastsInDim S1x80 (![1] : Fin 1 → Fin S1x80.rank)
  bcast_S1x80_S10000x80_0_1 : S1x80.BroadcastsInDim S10000x80 (![0, 1] : Fin 2 → Fin S10000x80.rank)
  bcast_S_S10000x80 : S_.BroadcastsInDim S10000x80 (![] : Fin 0 → Fin S10000x80.rank)
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  dot_S10000x128_S128x80_S10000x80_1_0_0_1_n_n_wf : DotDims.WF S10000x128 S128x80 S10000x80 [1] [0] [0] [1] [] []
  dot_S10000x10000_S10000x80_S10000x80_1_0_0_1_n_n_wf : DotDims.WF S10000x10000 S10000x80 S10000x80 [1] [0] [0] [1] [] []
  dot_S10000x80_S80x4_S10000x4_1_0_0_1_n_n_wf : DotDims.WF S10000x80 S80x4 S10000x4 [1] [0] [0] [1] [] []
  dot_S10000x10000_S10000x4_S10000x4_1_0_0_1_n_n_wf : DotDims.WF S10000x10000 S10000x4 S10000x4 [1] [0] [0] [1] [] []

variable [Facts₀]

def dot_S10000x128_S128x80_S10000x80_1_0_0_1_n_n : DotDims S10000x128 S128x80 S10000x80 where
  lhsContracting := [1]
  rhsContracting := [0]
  lhsNonContracting := [0]
  rhsNonContracting := [1]
  lhsBatch := []
  rhsBatch := []
  wf := dot_S10000x128_S128x80_S10000x80_1_0_0_1_n_n_wf
def dot_S10000x10000_S10000x80_S10000x80_1_0_0_1_n_n : DotDims S10000x10000 S10000x80 S10000x80 where
  lhsContracting := [1]
  rhsContracting := [0]
  lhsNonContracting := [0]
  rhsNonContracting := [1]
  lhsBatch := []
  rhsBatch := []
  wf := dot_S10000x10000_S10000x80_S10000x80_1_0_0_1_n_n_wf
def dot_S10000x80_S80x4_S10000x4_1_0_0_1_n_n : DotDims S10000x80 S80x4 S10000x4 where
  lhsContracting := [1]
  rhsContracting := [0]
  lhsNonContracting := [0]
  rhsNonContracting := [1]
  lhsBatch := []
  rhsBatch := []
  wf := dot_S10000x80_S80x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf

class Facts : Prop extends Facts₀ where

variable [Facts]
-- ==== Proof.LibWholeStore.lean ====
/-
  A store of a whole buffer, read back.

  A list of writes whose one piece goes through the unit-stride rectangle at zero offsets and of the buffer's
  own sizes covers every element, so reading the buffer back gives the stored value whatever the buffer held
  before: every index is its own position in the rectangle. Stated for any rank with the offsets given
  together with a proof that they are zero, and for rank 2 with the offsets spelt ![0, 0], the form a
  two-dimensional store at the origin takes.
-/
import Idealize.ShloMosaic.Lib.WritesUnit

namespace Idealize.ShloMosaic.WholeStore

open Idealize.ShloMosaic

variable {sig : RefSig} {κ : Kind} {sp : Space} {e : EltTy} {Val : EltTy → Type}

/-- A store of a whole buffer through the rectangle at zero offsets leaves the stored value, whatever the buffer held. -/
theorem read_writes_whole_of_zero {s : Shape} (v : View sig κ sp s e) (f : v.ty.Contents Val)
    (off : Fin s.rank → ℕ) (hz : off = fun _ => 0) (inb : ∀ a, off a + s.size a ≤ s.size a)
    (w : (Rect.unit off s.size inb).shape.Idx → Val e) :
    v.read Val (v.writes Val f [(⟨Rect.unit off s.size inb, w⟩ : View.Piece Val s e)]) = w := by
  subst hz; funext y
  exact View.read_writes_cons_unit_of_mem v f inb w [] y y rfl (fun a => (Nat.zero_add _).symm)

/-- The origin of a rank-2 shape, spelt as a literal vector, is the zero function. -/
theorem zero_offsets2 : (![0, 0] : Fin 2 → ℕ) = fun _ => 0 := by
  funext a; match a with | ⟨0, _⟩ => rfl | ⟨1, _⟩ => rfl

/-- The rank-2 case with the offsets spelt ![0, 0]. -/
theorem read_writes_whole2 {d : Fin 2 → ℕ} (v : View sig κ sp (⟨2, d⟩ : Shape) e) (f : v.ty.Contents Val)
    (inb : ∀ a, (![0, 0] : Fin 2 → ℕ) a + d a ≤ d a) (w : (Rect.unit (s := ⟨2, d⟩) ![0, 0] d inb).shape.Idx → Val e) :
    v.read Val (v.writes Val f [(⟨Rect.unit (s := ⟨2, d⟩) ![0, 0] d inb, w⟩ : View.Piece Val (⟨2, d⟩ : Shape) e)]) = w :=
  read_writes_whole_of_zero v f ![0, 0] zero_offsets2 inb w

end Idealize.ShloMosaic.WholeStore
-- ==== Proof.KernelRuns.lean ====
import proofs.«107068_g31593779430026_cont_9to1_839_6_alg».proof.Proof.Gen.Kernel.Frame
import proofs.«107068_g31593779430026_cont_9to1_839_6_alg».proof.Proof.Gen.Kernel.Skeleton
import proofs.«107068_g31593779430026_cont_9to1_839_6_alg».proof.Proof.LibWholeStore
import Idealize.ShloMosaic.Lib.WritesUnit
import Idealize.ShloMosaic.Lib.Pipeline.Value

set_option maxRecDepth 16384

/-
  The kernel's body run once per control case, at any float instance, with what it leaves named.

  The grid is 2 × 25, point t = 25·p + i. The body has three guarded parts:
    (first)  at p = 0, i = 0 : the first scratch (10000×80) is stored whole with x·W1;
    (second) at p = 0        : rows [400·i, 400·i + 400) of the second scratch (10000×4) are stored with
                               relu(adjblock · first scratch + b1) · W2, the other rows untouched;
    (third)  at p = 1        : the output block (400×4) is stored whole with adjblock · second scratch + b2.
  Case A is point 0 (first and second parts), case B the points 1 … 24 (second part), case C the points
  25 … 49 (third part). Each run states the contents of every buffer it stores into as the body's own
  term of the loaded values; a partly stored buffer is described row by row: the stored rows hold the
  stored term, the other rows what they held.
-/
noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch's condition (both grid coordinates are zero), as the body computes it. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (the first coordinate is zero). -/
abbrev cond0_1 (i : grid0.Coords) : Prop := k0_cond2 i = 1#1
/-- The third branch's condition (the first coordinate is one). -/
abbrev cond0_2 (i : grid0.Coords) : Prop := k0_cond3 i = 1#1

/-- The first condition holds at point 0 only. -/
theorem hcond0_0 : ∀ t : Fin cfg0.N, cond0_0 (grid0.coords t) ↔ t.val % 50 = 0 :=
  (by decide +kernel : ∀ t : Fin grid0.N, cond0_0 (grid0.coords t) ↔ t.val % 50 = 0)
/-- The second condition holds at the points below 25. -/
theorem hcond0_1 : ∀ t : Fin cfg0.N, cond0_1 (grid0.coords t) ↔ t.val < 25 :=
  (by decide +kernel : ∀ t : Fin grid0.N, cond0_1 (grid0.coords t) ↔ t.val < 25)
/-- The third condition holds at the points from 25 on. -/
theorem hcond0_2 : ∀ t : Fin cfg0.N, cond0_2 (grid0.coords t) ↔ 25 ≤ t.val :=
  (by decide +kernel : ∀ t : Fin grid0.N, cond0_2 (grid0.coords t) ↔ 25 ≤ t.val)
/-- The stored rows of the second scratch at point t start at row 400·(t mod 25), column 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-- Case A (point 0): the first scratch is stored whole with the first part's term, then rows [o, o + 400) of
    the second scratch with the second part's term of it; the other rows and every other buffer as they were. -/
theorem runA (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : cond0_0 i) (hc1 : cond0_1 i) (hc2 : ¬cond0_2 i) (o : ℕ) (hoff : k0_off1 i = ![o, 0])
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1)
            ∗ (∃ d1 : Vec F S10000x4 .bf16, ⌜(∀ (y : S10000x4.Idx) (x : S400x4.Idx), (y 0).val = o + (x 0).val → (y 1).val = (x 1).val → d1 y = k0_pay2 x5 (k0_pay1 x0 x1) x2 x3 x)
                ∧ (∀ y : S10000x4.Idx, ((y 0).val < o ∨ o + 400 ≤ (y 0).val) → d1 y = xs1 y)⌝ ∗ owns (c : Thread nD τ) arg10 fullShare d1)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_run_names
  simp only [View.readAt_eq_ld, hf0, hf1, hf2, hf3, hf5, View.ld_unit_zero (S := S10000x128) WholeStore.zero_offsets2, View.ld_unit_zero (S := S128x80) WholeStore.zero_offsets2,
    View.ld_unit_zero (S := S400x10000) WholeStore.zero_offsets2, View.ld_unit_zero (S := S10000x80) WholeStore.zero_offsets2, View.ld_unit_zero (S := S1x80) WholeStore.zero_offsets2,
    View.ld_unit_zero (S := S80x4) WholeStore.zero_offsets2, View.readCov_unit_zero (S := S10000x80) _ WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [HS0]
  · iexists _; isplitr; swap; · iexact HS0
    ipureintro; exact WholeStore.read_writes_whole2 _ _ _ _
  iexists _; isplitr; swap
  · iexists _; isplitr; swap; · iexact HS1
    ipureintro; rfl
  ipureintro
  refine ⟨fun y x h0 h1 => ?_, fun y h => ?_⟩
  · exact View.read_writes_cons_rows_of_mem (size := S400x4.size) arg10.view (harg10.unread xs1) _ _ [] y x hoff h0 h1
  · exact (View.read_writes_cons_rows_of_not_mem (size := S400x4.size) arg10.view (harg10.unread xs1) _ _ [] y hoff rfl h).trans (by rw [View.writes_nil]; exact congrFun hfs1 y)

/-- Case B: only the second part runs. Rows [o, o + 400) of the second scratch end at the stored term, the
    other rows and every other buffer as they were. -/
theorem runB (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : ¬cond0_0 i) (hc1 : cond0_1 i) (hc2 : ¬cond0_2 i) (o : ℕ) (hoff : k0_off1 i = ![o, 0])
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs0 : Vec F S10000x80 .bf16) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ (∃ d1 : Vec F S10000x4 .bf16, ⌜(∀ (y : S10000x4.Idx) (x : S400x4.Idx), (y 0).val = o + (x 0).val → (y 1).val = (x 1).val → d1 y = k0_pay2 x5 xs0 x2 x3 x)
                ∧ (∀ y : S10000x4.Idx, ((y 0).val < o ∨ o + 400 ≤ (y 0).val) → d1 y = xs1 y)⌝ ∗ owns (c : Thread nD τ) arg10 fullShare d1)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  sl_unfold_run_names
  simp only [View.readAt_eq_ld, hf2, hf3, hf5, hfs0, View.ld_unit_zero (S := S400x10000) WholeStore.zero_offsets2, View.ld_unit_zero (S := S10000x80) WholeStore.zero_offsets2,
    View.ld_unit_zero (S := S1x80) WholeStore.zero_offsets2, View.ld_unit_zero (S := S80x4) WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [HS0]
  · iexists _; isplitr; · ipureintro; exact hfs0
    iexact HS0
  iexists _; isplitr; swap
  · iexists _; isplitr; swap; · iexact HS1
    ipureintro; rfl
  ipureintro
  refine ⟨fun y x h0 h1 => ?_, fun y h => ?_⟩
  · exact View.read_writes_cons_rows_of_mem (size := S400x4.size) arg10.view (harg10.unread xs1) _ _ [] y x hoff h0 h1
  · exact (View.read_writes_cons_rows_of_not_mem (size := S400x4.size) arg10.view (harg10.unread xs1) _ _ [] y hoff rfl h).trans (by rw [View.writes_nil]; exact congrFun hfs1 y)

/-- Case C: only the third part runs. The output block is stored whole with the third part's term of the
    second scratch; every other buffer as it was. -/
theorem runC (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : ¬cond0_0 i) (hc1 : ¬cond0_1 i) (hc2 : cond0_2 i)
    (x0 : Vec F S10000x128 .f32) (x1 : Vec F S128x80 .f32) (x2 : Vec F S1x80 .f32) (x3 : Vec F S80x4 .f32) (x4 : Vec F S1x4 .f32) (x5 : Vec F S400x10000 .f32) (xs0 : Vec F S10000x80 .bf16) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0
            ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  sl_unfold_run_names
  simp only [View.readAt_eq_ld, hf4, hf5, hfs1, View.ld_unit_zero (S := S400x10000) WholeStore.zero_offsets2, View.ld_unit_zero (S := S10000x4) WholeStore.zero_offsets2,
    View.ld_unit_zero (S := S1x4) WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact WholeStore.read_writes_whole2 _ _ _ _
  isplitl [HS0]
  · iexists _; isplitr; · ipureintro; exact hfs0
    iexact HS0
  iexists _; isplitr; · ipureintro; exact hfs1
  iexact HS1

end Cert.Kernel.Body

end
-- ==== Proof.KernelFrame.lean ====
import proofs.«107068_g31593779430026_cont_9to1_839_6_alg».proof.Proof.KernelRuns
import Idealize.ShloMosaic.Lib.ValueIdx

set_option maxRecDepth 16384

/-
  The frame of the program from the body's three runs, with the two scratch buffers followed point by point.

  Write S1 for the body's term x·W1 of the whole x and W1 blocks, and S2 for the 10000×4 array whose rows
  [400·s, 400·s + 400) are the second part's term at point s < 25 (of the adjacency block of point s, S1,
  b1 and W2). The invariant before point n says: the first scratch holds S1 once n > 0, and the second
  scratch agrees with S2 on its rows below 400·n. Point 0 establishes the first and the rows below 400;
  a point 0 < t < 25 adds the rows [400·t, 400·t + 400); from point 25 on every row is below 400·t, so the
  second scratch is S2, and the output block stored there is the third part's term of S2.
  The output window is idle below point 25 (nothing is stored into it and it is not written back), so its
  buffer passes through the body untouched there.
-/
noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule facts the frame uses, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly below point 25. -/
theorem idle0_6 : ∀ t : Fin cfg0.N, cfg0.idle 6 (grid0.coords t) = decide (t.val < 25) :=
  (by decide +kernel : ∀ t : Fin grid0.N, cfg0.idle 6 (grid0.coords t) = decide (t.val < 25))
/-- The output window is written back exactly from point 25 on. -/
theorem flush0_6 : ∀ t : Fin cfg0.N, (cfg0.win 6).flush t = decide (25 ≤ t.val) :=
  (by decide +kernel : ∀ t : Fin grid0.N, win0_6.flush t = decide (25 ≤ t.val))

/-- Each window's current staging memref at point t, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x4 .f32 := win0_6.stage (cfg0.slots t 6)
abbrev hs0_6 (t : Fin cfg0.N) : (ms0_6 t).IsWhole := hstage0_6 ((cfg0.slots t 6).cast nbuf0_6)
/-- The two scratch operands, whole scoped buffers. -/
abbrev scM0_0 : Memref sig .tc .vmem S10000x80 .bf16 := Memref.whole cc0_scratch0
abbrev scM0_1 : Memref sig .tc .vmem S10000x4 .bf16 := Memref.whole cc0_scratch1

/-- The region's default invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output block hold -/

theorem N_pos : 0 < cfg0.N := by rw [show cfg0.N = 50 from N_0]; omega

/-- The first point. -/
abbrev t0 : Fin cfg0.N := ⟨0, N_pos⟩

/-- S1: the first part's term of the x and W1 blocks. -/
def S1 (c : Dev nD) : Vec F S10000x80 .bf16 := k0_pay1 (iblk m c 0 t0) (iblk m c 1 t0)

/-- The second part's term at point s: 400 rows of S2. -/
def s2At (c : Dev nD) (s : Fin cfg0.N) : Vec F S400x4 .bf16 := k0_pay2 (iblk m c 5 s) (S1 m c) (iblk m c 2 s) (iblk m c 3 s)

theorem row_point_lt (y : S10000x4.Idx) : (y 0).val / 400 < cfg0.N := by
  rw [show cfg0.N = 50 from N_0]; have := ValueIdx.idx2_lt0 y; omega

/-- S2: row r of it is row r mod 400 of the second part's term at point r / 400. -/
def S2 (c : Dev nD) : Vec F S10000x4 .bf16 := fun y =>
  s2At m c ⟨(y 0).val / 400, row_point_lt y⟩ (ValueIdx.ix2 ⟨(y 0).val % 400, Nat.mod_lt _ (by omega)⟩ ⟨(y 1).val, ValueIdx.idx2_lt1 y⟩)

/-- The third part's term at point t, of S2. -/
def out6 (c : Dev nD) (t : Fin cfg0.N) : Vec F S400x4 .f32 := k0_pay3 (iblk m c 5 t) (S2 m c) (iblk m c 4 t)

/-- The region invariant before position n. -/
def PhiG (c : Dev nD) (n : ℕ) : sProp 𝕄 :=
  iprop(iprop((∃ d0 : Vec F S10000x80 .bf16, ⌜n ≠ 0 → d0 = S1 m c⌝ ∗ owns (c : Thread nD τ) scM0_0 fullShare d0)
      ∗ (∃ d1 : Vec F S10000x4 .bf16, ⌜∀ y : S10000x4.Idx, (y 0).val < 400 * n → d1 y = S2 m c y⌝ ∗ owns (c : Thread nD τ) scM0_1 fullShare d1))
    ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiG m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A row index of the second scratch below 400·(t+1) but not below 400·t lies at point t. -/
theorem S2_at (c : Dev nD) (t : Fin cfg0.N) (y : S10000x4.Idx) (h : (y 0).val / 400 = t.val) :
    S2 m c y = s2At m c t (ValueIdx.ix2 ⟨(y 0).val % 400, Nat.mod_lt _ (by omega)⟩ ⟨(y 1).val, ValueIdx.idx2_lt1 y⟩) :=
  congrArg (fun s => s2At m c s (ValueIdx.ix2 ⟨(y 0).val % 400, Nat.mod_lt _ (by omega)⟩ ⟨(y 1).val, ValueIdx.idx2_lt1 y⟩))
    (Fin.ext h : (⟨(y 0).val / 400, row_point_lt y⟩ : Fin cfg0.N) = t)

/-- The rows a point below 25 adds to the second scratch: if d1 agreed with S2 below row 400·t (for t = 0
    nothing is asked) and d1' holds the point's term on rows [400·t, 400·t + 400) and d1 elsewhere, then d1'
    agrees with S2 below row 400·(t + 1). -/
theorem rows_step (c : Dev nD) (t : Fin cfg0.N) (xs0 : Vec F S10000x80 .bf16) (hxs0 : xs0 = S1 m c)
    (d1 d1' : Vec F S10000x4 .bf16)
    (hd1 : ∀ y : S10000x4.Idx, (y 0).val < 400 * t.val → d1 y = S2 m c y)
    (hin : ∀ (y : S10000x4.Idx) (x : S400x4.Idx), (y 0).val = 400 * t.val + (x 0).val → (y 1).val = (x 1).val →
      d1' y = k0_pay2 (iblk m c 5 t) xs0 (iblk m c 2 t) (iblk m c 3 t) x)
    (hout : ∀ y : S10000x4.Idx, ((y 0).val < 400 * t.val ∨ 400 * t.val + 400 ≤ (y 0).val) → d1' y = d1 y)
    (y : S10000x4.Idx) (hy : (y 0).val < 400 * (t.val + 1)) : d1' y = S2 m c y := by
  subst hxs0
  by_cases hlt : (y 0).val < 400 * t.val
  · rw [hout y (Or.inl hlt)]; exact hd1 y hlt
  · have hq : (y 0).val / 400 = t.val := by omega
    rw [S2_at m c t y hq]
    exact hin y _ (by show (y 0).val = 400 * t.val + (y 0).val % 400; omega) rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiG m c (t.val + 1) from rfl, show (dats m 0 c).Φ t.castSucc = PhiG m c t.val from rfl]
  have hN : t.val < 50 := lt_of_lt_of_eq t.isLt (show cfg0.N = 50 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  unfold PhiG
  by_cases h1 : t.val < 25
  · -- the output window is idle and not written back: its buffer passes through
    rw [(dats m 0 c).leavesExact_idle 6 t (by rw [idle0_6 t]; exact decide_eq_true h1) (by rw [flush0_6 t]; exact decide_eq_false (by omega))]
    have hoff : k0_off1 (grid0.coords t) = ![400 * t.val, 0] := by rw [hoff1 t, Nat.mod_eq_of_lt h1]
    by_cases h0 : t.val = 0
    · -- case A
      iintro ⟨⟨⟨⟨%d0, -, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr (by omega)) ((hcond0_1 t).mpr h1) (fun h => absurd ((hcond0_2 t).mp h) (by omega)) (400 * t.val) hoff (iblk m c 0 t) (iblk m c 1 t) (iblk m c 2 t) (iblk m c 3 t) (iblk m c 4 t) (iblk m c 5 t) ((dats m 0 c).before 6 t e6) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%d1', %hd1', HS1⟩⟩
      have ht0 : t = t0 := Fin.ext h0
      isplitl [HS0 HS1 Hg]
      · isplitl [HS0 HS1]
        · isplitl [HS0]
          · iexists _; isplitr; swap; · iexact HS0
            ipureintro; intro _; subst ht0; rfl
          iexists d1'; isplitr; swap; · iexact HS1
          ipureintro
          exact rows_step m c t _ (by subst ht0; rfl) d1 d1' hd1 hd1'.1 hd1'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- case B
      iintro ⟨⟨⟨⟨%d0, %hd0, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 (by have := (hcond0_0 t).mp h; omega)) ((hcond0_1 t).mpr h1) (fun h => absurd ((hcond0_2 t).mp h) (by omega)) (400 * t.val) hoff (iblk m c 0 t) (iblk m c 1 t) (iblk m c 2 t) (iblk m c 3 t) (iblk m c 4 t) (iblk m c 5 t) ((dats m 0 c).before 6 t e6) d0 d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d1', %hd1', HS1⟩⟩
      isplitl [HS0 HS1 Hg]
      · isplitl [HS0 HS1]
        · isplitl [HS0]
          · iexists _; isplitr; swap; · iexact HS0
            ipureintro; intro _; exact hd0 h0
          iexists d1'; isplitr; swap; · iexact HS1
          ipureintro
          exact rows_step m c t d0 (hd0 h0) d1 d1' hd1 hd1'.1 hd1'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- case C: every row of the second scratch is below 400·t, the output block is stored whole
    have h2 : 25 ≤ t.val := by omega
    rw [show (dats m 0 c).leavesExact 6 t = owns (c : Thread nD τ) (ms0_6 t) fullShare ((dats m 0 c).after 6 t) from by
      unfold Dat.leavesExact; rw [idle0_6 t, decide_eq_false h1], after0_6]
    iintro ⟨⟨⟨⟨%d0, %hd0, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
    have hd1' : d1 = S2 m c := funext fun y => hd1 y (by have := ValueIdx.idx2_lt0 y; omega)
    subst hd1'
    iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => absurd ((hcond0_0 t).mp h) (by omega)) (fun h => h1 ((hcond0_1 t).mp h)) ((hcond0_2 t).mpr h2) (iblk m c 0 t) (iblk m c 1 t) (iblk m c 2 t) (iblk m c 3 t) (iblk m c 4 t) (iblk m c 5 t) d0 (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro _; exact hd0 (by omega)
        iexists _; isplitr; swap; · iexact HS1
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch buffers. -/
theorem hin (c : Dev nD) : Pipeline.ΦA spec0 c ⊢ (dats m 0 c).Φ 0 := by
  rw [show (dats m 0 c).Φ 0 = PhiG m c 0 from rfl, PhiA0_eq]
  unfold PhiG
  iintro ⟨⟨⟨%d0, HS0⟩, ⟨%d1, HS1⟩⟩, Hg⟩
  isplitl [HS0 HS1]
  · isplitl [HS0]
    · iexists d0; isplitr; swap; · iexact HS0
      ipureintro; intro h; exact absurd rfl h
    iexists d1; isplitr; swap; · iexact HS1
    ipureintro; intro y hy; exact absurd hy (by omega)
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiG m c (Fin.last cfg0.N).val from rfl, PhiA0_eq]
  unfold PhiG
  iintro ⟨⟨⟨%d0, -, HS0⟩, ⟨%d1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates without a fault, each windowed array at what the
    write-backs of the proof data leave in it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealRuns.lean ====
import proofs.«107068_g31593779430026_cont_9to1_839_6_alg».proof.Proof.Gen.KernelIdeal.Frame
import proofs.«107068_g31593779430026_cont_9to1_839_6_alg».proof.Proof.Gen.KernelIdeal.Skeleton
import proofs.«107068_g31593779430026_cont_9to1_839_6_alg».proof.Proof.LibWholeStore
import Idealize.ShloMosaic.Lib.WritesUnit
import Idealize.ShloMosaic.Lib.Pipeline.Value

set_option maxRecDepth 16384

/-
  The kernel's body run once per control case, at any float instance, with what it leaves named.

  The grid is 2 × 25, point t = 25·p + i. The body has three guarded parts:
    (first)  at p = 0, i = 0 : the first scratch (10000×80) is stored whole with x·W1;
    (second) at p = 0        : rows [400·i, 400·i + 400) of the second scratch (10000×4) are stored with
                               relu(adjblock · first scratch + b1) · W2, the other rows untouched;
    (third)  at p = 1        : the output block (400×4) is stored whole with adjblock · second scratch + b2.
  Case A is point 0 (first and second parts), case B the points 1 … 24 (second part), case C the points
  25 … 49 (third part). Each run states the contents of every buffer it stores into as the body's own
  term of the loaded values; a partly stored buffer is described row by row: the stored rows hold the
  stored term, the other rows what they held.
-/
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The first branch's condition (both grid coordinates are zero), as the body computes it. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (the first coordinate is zero). -/
abbrev cond0_1 (i : grid0.Coords) : Prop := k0_cond2 i = 1#1
/-- The third branch's condition (the first coordinate is one). -/
abbrev cond0_2 (i : grid0.Coords) : Prop := k0_cond3 i = 1#1

/-- The first condition holds at point 0 only. -/
theorem hcond0_0 : ∀ t : Fin cfg0.N, cond0_0 (grid0.coords t) ↔ t.val % 50 = 0 :=
  (by decide +kernel : ∀ t : Fin grid0.N, cond0_0 (grid0.coords t) ↔ t.val % 50 = 0)
/-- The second condition holds at the points below 25. -/
theorem hcond0_1 : ∀ t : Fin cfg0.N, cond0_1 (grid0.coords t) ↔ t.val < 25 :=
  (by decide +kernel : ∀ t : Fin grid0.N, cond0_1 (grid0.coords t) ↔ t.val < 25)
/-- The third condition holds at the points from 25 on. -/
theorem hcond0_2 : ∀ t : Fin cfg0.N, cond0_2 (grid0.coords t) ↔ 25 ≤ t.val :=
  (by decide +kernel : ∀ t : Fin grid0.N, cond0_2 (grid0.coords t) ↔ 25 ≤ t.val)
/-- The stored rows of the second scratch at point t start at row 400·(t mod 25), column 0. -/
theorem hoff1 : ∀ t : Fin cfg0.N, k0_off1 (grid0.coords t) = ![400 * (t.val % 25), 0] :=
  (by decide +kernel : ∀ t : Fin grid0.N, k0_off1 (grid0.coords t) = ![400 * (t.val % 25), 0])

/-- Case A (point 0): the first scratch is stored whole with the first part's term, then rows [o, o + 400) of
    the second scratch with the second part's term of it; the other rows and every other buffer as they were. -/
theorem runA (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : cond0_0 i) (hc1 : cond0_1 i) (hc2 : ¬cond0_2 i) (o : ℕ) (hoff : k0_off1 i = ![o, 0])
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1)
            ∗ (∃ d1 : Vec F S10000x4 .bf16, ⌜(∀ (y : S10000x4.Idx) (x : S400x4.Idx), (y 0).val = o + (x 0).val → (y 1).val = (x 1).val → d1 y = k0_pay2 x5 (k0_pay1 x0 x1) x2 x3 x)
                ∧ (∀ y : S10000x4.Idx, ((y 0).val < o ∨ o + 400 ≤ (y 0).val) → d1 y = xs1 y)⌝ ∗ owns (c : Thread nD τ) arg10 fullShare d1)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_run_names
  simp only [View.readAt_eq_ld, hf0, hf1, hf2, hf3, hf5, View.ld_unit_zero (S := S10000x128) WholeStore.zero_offsets2, View.ld_unit_zero (S := S128x80) WholeStore.zero_offsets2,
    View.ld_unit_zero (S := S400x10000) WholeStore.zero_offsets2, View.ld_unit_zero (S := S10000x80) WholeStore.zero_offsets2, View.ld_unit_zero (S := S1x80) WholeStore.zero_offsets2,
    View.ld_unit_zero (S := S80x4) WholeStore.zero_offsets2, View.readCov_unit_zero (S := S10000x80) _ WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [HS0]
  · iexists _; isplitr; swap; · iexact HS0
    ipureintro; exact WholeStore.read_writes_whole2 _ _ _ _
  iexists _; isplitr; swap
  · iexists _; isplitr; swap; · iexact HS1
    ipureintro; rfl
  ipureintro
  refine ⟨fun y x h0 h1 => ?_, fun y h => ?_⟩
  · exact View.read_writes_cons_rows_of_mem (size := S400x4.size) arg10.view (harg10.unread xs1) _ _ [] y x hoff h0 h1
  · exact (View.read_writes_cons_rows_of_not_mem (size := S400x4.size) arg10.view (harg10.unread xs1) _ _ [] y hoff rfl h).trans (by rw [View.writes_nil]; exact congrFun hfs1 y)

/-- Case B: only the second part runs. Rows [o, o + 400) of the second scratch end at the stored term, the
    other rows and every other buffer as they were. -/
theorem runB (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : ¬cond0_0 i) (hc1 : cond0_1 i) (hc2 : ¬cond0_2 i) (o : ℕ) (hoff : k0_off1 i = ![o, 0])
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs0 : Vec F S10000x80 .bf16) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ (∃ d1 : Vec F S10000x4 .bf16, ⌜(∀ (y : S10000x4.Idx) (x : S400x4.Idx), (y 0).val = o + (x 0).val → (y 1).val = (x 1).val → d1 y = k0_pay2 x5 xs0 x2 x3 x)
                ∧ (∀ y : S10000x4.Idx, ((y 0).val < o ∨ o + 400 ≤ (y 0).val) → d1 y = xs1 y)⌝ ∗ owns (c : Thread nD τ) arg10 fullShare d1)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  sl_unfold_run_names
  simp only [View.readAt_eq_ld, hf2, hf3, hf5, hfs0, View.ld_unit_zero (S := S400x10000) WholeStore.zero_offsets2, View.ld_unit_zero (S := S10000x80) WholeStore.zero_offsets2,
    View.ld_unit_zero (S := S1x80) WholeStore.zero_offsets2, View.ld_unit_zero (S := S80x4) WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [HS0]
  · iexists _; isplitr; · ipureintro; exact hfs0
    iexact HS0
  iexists _; isplitr; swap
  · iexists _; isplitr; swap; · iexact HS1
    ipureintro; rfl
  ipureintro
  refine ⟨fun y x h0 h1 => ?_, fun y h => ?_⟩
  · exact View.read_writes_cons_rows_of_mem (size := S400x4.size) arg10.view (harg10.unread xs1) _ _ [] y x hoff h0 h1
  · exact (View.read_writes_cons_rows_of_not_mem (size := S400x4.size) arg10.view (harg10.unread xs1) _ _ [] y hoff rfl h).trans (by rw [View.writes_nil]; exact congrFun hfs1 y)

/-- Case C: only the third part runs. The output block is stored whole with the third part's term of the
    second scratch; every other buffer as it was. -/
theorem runC (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .bf16) (harg9 : arg9.IsWhole) (arg10 : Memref sig .tc .vmem S10000x4 .bf16) (harg10 : arg10.IsWhole) (hc0 : ¬cond0_0 i) (hc1 : ¬cond0_1 i) (hc2 : cond0_2 i)
    (x0 : Vec F S10000x128 .f32) (x1 : Vec F S128x80 .f32) (x2 : Vec F S1x80 .f32) (x3 : Vec F S80x4 .f32) (x4 : Vec F S1x4 .f32) (x5 : Vec F S400x10000 .f32) (xs0 : Vec F S10000x80 .bf16) (xs1 : Vec F S10000x4 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0
            ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  sl_unfold_run_names
  simp only [View.readAt_eq_ld, hf4, hf5, hfs1, View.ld_unit_zero (S := S400x10000) WholeStore.zero_offsets2, View.ld_unit_zero (S := S10000x4) WholeStore.zero_offsets2,
    View.ld_unit_zero (S := S1x4) WholeStore.zero_offsets2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact WholeStore.read_writes_whole2 _ _ _ _
  isplitl [HS0]
  · iexists _; isplitr; · ipureintro; exact hfs0
    iexact HS0
  iexists _; isplitr; · ipureintro; exact hfs1
  iexact HS1

end Cert.KernelIdeal.Body

end
-- ==== Proof.KernelIdealFrame.lean ====
import proofs.«107068_g31593779430026_cont_9to1_839_6_alg».proof.Proof.KernelIdealRuns
import Idealize.ShloMosaic.Lib.ValueIdx

set_option maxRecDepth 16384

/-
  The frame of the program from the body's three runs, with the two scratch buffers followed point by point.

  Write S1 for the body's term x·W1 of the whole x and W1 blocks, and S2 for the 10000×4 array whose rows
  [400·s, 400·s + 400) are the second part's term at point s < 25 (of the adjacency block of point s, S1,
  b1 and W2). The invariant before point n says: the first scratch holds S1 once n > 0, and the second
  scratch agrees with S2 on its rows below 400·n. Point 0 establishes the first and the rows below 400;
  a point 0 < t < 25 adds the rows [400·t, 400·t + 400); from point 25 on every row is below 400·t, so the
  second scratch is S2, and the output block stored there is the third part's term of S2.
  The output window is idle below point 25 (nothing is stored into it and it is not written back), so its
  buffer passes through the body untouched there.
-/
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule facts the frame uses, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly below point 25. -/
theorem idle0_6 : ∀ t : Fin cfg0.N, cfg0.idle 6 (grid0.coords t) = decide (t.val < 25) :=
  (by decide +kernel : ∀ t : Fin grid0.N, cfg0.idle 6 (grid0.coords t) = decide (t.val < 25))
/-- The output window is written back exactly from point 25 on. -/
theorem flush0_6 : ∀ t : Fin cfg0.N, (cfg0.win 6).flush t = decide (25 ≤ t.val) :=
  (by decide +kernel : ∀ t : Fin grid0.N, win0_6.flush t = decide (25 ≤ t.val))

/-- Each window's current staging memref at point t, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x4 .f32 := win0_6.stage (cfg0.slots t 6)
abbrev hs0_6 (t : Fin cfg0.N) : (ms0_6 t).IsWhole := hstage0_6 ((cfg0.slots t 6).cast nbuf0_6)
/-- The two scratch operands, whole scoped buffers. -/
abbrev scM0_0 : Memref sig .tc .vmem S10000x80 .bf16 := Memref.whole cc0_scratch0
abbrev scM0_1 : Memref sig .tc .vmem S10000x4 .bf16 := Memref.whole cc0_scratch1

/-- The region's default invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output block hold -/

theorem N_pos : 0 < cfg0.N := by rw [show cfg0.N = 50 from N_0]; omega

/-- The first point. -/
abbrev t0 : Fin cfg0.N := ⟨0, N_pos⟩

/-- S1: the first part's term of the x and W1 blocks. -/
def S1 (c : Dev nD) : Vec F S10000x80 .bf16 := k0_pay1 (iblk m c 0 t0) (iblk m c 1 t0)

/-- The second part's term at point s: 400 rows of S2. -/
def s2At (c : Dev nD) (s : Fin cfg0.N) : Vec F S400x4 .bf16 := k0_pay2 (iblk m c 5 s) (S1 m c) (iblk m c 2 s) (iblk m c 3 s)

theorem row_point_lt (y : S10000x4.Idx) : (y 0).val / 400 < cfg0.N := by
  rw [show cfg0.N = 50 from N_0]; have := ValueIdx.idx2_lt0 y; omega

/-- S2: row r of it is row r mod 400 of the second part's term at point r / 400. -/
def S2 (c : Dev nD) : Vec F S10000x4 .bf16 := fun y =>
  s2At m c ⟨(y 0).val / 400, row_point_lt y⟩ (ValueIdx.ix2 ⟨(y 0).val % 400, Nat.mod_lt _ (by omega)⟩ ⟨(y 1).val, ValueIdx.idx2_lt1 y⟩)

/-- The third part's term at point t, of S2. -/
def out6 (c : Dev nD) (t : Fin cfg0.N) : Vec F S400x4 .f32 := k0_pay3 (iblk m c 5 t) (S2 m c) (iblk m c 4 t)

/-- The region invariant before position n. -/
def PhiG (c : Dev nD) (n : ℕ) : sProp 𝕄 :=
  iprop(iprop((∃ d0 : Vec F S10000x80 .bf16, ⌜n ≠ 0 → d0 = S1 m c⌝ ∗ owns (c : Thread nD τ) scM0_0 fullShare d0)
      ∗ (∃ d1 : Vec F S10000x4 .bf16, ⌜∀ y : S10000x4.Idx, (y 0).val < 400 * n → d1 y = S2 m c y⌝ ∗ owns (c : Thread nD τ) scM0_1 fullShare d1))
    ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiG m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A row index of the second scratch below 400·(t+1) but not below 400·t lies at point t. -/
theorem S2_at (c : Dev nD) (t : Fin cfg0.N) (y : S10000x4.Idx) (h : (y 0).val / 400 = t.val) :
    S2 m c y = s2At m c t (ValueIdx.ix2 ⟨(y 0).val % 400, Nat.mod_lt _ (by omega)⟩ ⟨(y 1).val, ValueIdx.idx2_lt1 y⟩) :=
  congrArg (fun s => s2At m c s (ValueIdx.ix2 ⟨(y 0).val % 400, Nat.mod_lt _ (by omega)⟩ ⟨(y 1).val, ValueIdx.idx2_lt1 y⟩))
    (Fin.ext h : (⟨(y 0).val / 400, row_point_lt y⟩ : Fin cfg0.N) = t)

/-- The rows a point below 25 adds to the second scratch: if d1 agreed with S2 below row 400·t (for t = 0
    nothing is asked) and d1' holds the point's term on rows [400·t, 400·t + 400) and d1 elsewhere, then d1'
    agrees with S2 below row 400·(t + 1). -/
theorem rows_step (c : Dev nD) (t : Fin cfg0.N) (xs0 : Vec F S10000x80 .bf16) (hxs0 : xs0 = S1 m c)
    (d1 d1' : Vec F S10000x4 .bf16)
    (hd1 : ∀ y : S10000x4.Idx, (y 0).val < 400 * t.val → d1 y = S2 m c y)
    (hin : ∀ (y : S10000x4.Idx) (x : S400x4.Idx), (y 0).val = 400 * t.val + (x 0).val → (y 1).val = (x 1).val →
      d1' y = k0_pay2 (iblk m c 5 t) xs0 (iblk m c 2 t) (iblk m c 3 t) x)
    (hout : ∀ y : S10000x4.Idx, ((y 0).val < 400 * t.val ∨ 400 * t.val + 400 ≤ (y 0).val) → d1' y = d1 y)
    (y : S10000x4.Idx) (hy : (y 0).val < 400 * (t.val + 1)) : d1' y = S2 m c y := by
  subst hxs0
  by_cases hlt : (y 0).val < 400 * t.val
  · rw [hout y (Or.inl hlt)]; exact hd1 y hlt
  · have hq : (y 0).val / 400 = t.val := by omega
    rw [S2_at m c t y hq]
    exact hin y _ (by show (y 0).val = 400 * t.val + (y 0).val % 400; omega) rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiG m c (t.val + 1) from rfl, show (dats m 0 c).Φ t.castSucc = PhiG m c t.val from rfl]
  have hN : t.val < 50 := lt_of_lt_of_eq t.isLt (show cfg0.N = 50 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  unfold PhiG
  by_cases h1 : t.val < 25
  · -- the output window is idle and not written back: its buffer passes through
    rw [(dats m 0 c).leavesExact_idle 6 t (by rw [idle0_6 t]; exact decide_eq_true h1) (by rw [flush0_6 t]; exact decide_eq_false (by omega))]
    have hoff : k0_off1 (grid0.coords t) = ![400 * t.val, 0] := by rw [hoff1 t, Nat.mod_eq_of_lt h1]
    by_cases h0 : t.val = 0
    · -- case A
      iintro ⟨⟨⟨⟨%d0, -, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr (by omega)) ((hcond0_1 t).mpr h1) (fun h => absurd ((hcond0_2 t).mp h) (by omega)) (400 * t.val) hoff (iblk m c 0 t) (iblk m c 1 t) (iblk m c 2 t) (iblk m c 3 t) (iblk m c 4 t) (iblk m c 5 t) ((dats m 0 c).before 6 t e6) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%d1', %hd1', HS1⟩⟩
      have ht0 : t = t0 := Fin.ext h0
      isplitl [HS0 HS1 Hg]
      · isplitl [HS0 HS1]
        · isplitl [HS0]
          · iexists _; isplitr; swap; · iexact HS0
            ipureintro; intro _; subst ht0; rfl
          iexists d1'; isplitr; swap; · iexact HS1
          ipureintro
          exact rows_step m c t _ (by subst ht0; rfl) d1 d1' hd1 hd1'.1 hd1'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- case B
      iintro ⟨⟨⟨⟨%d0, %hd0, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 (by have := (hcond0_0 t).mp h; omega)) ((hcond0_1 t).mpr h1) (fun h => absurd ((hcond0_2 t).mp h) (by omega)) (400 * t.val) hoff (iblk m c 0 t) (iblk m c 1 t) (iblk m c 2 t) (iblk m c 3 t) (iblk m c 4 t) (iblk m c 5 t) ((dats m 0 c).before 6 t e6) d0 d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d1', %hd1', HS1⟩⟩
      isplitl [HS0 HS1 Hg]
      · isplitl [HS0 HS1]
        · isplitl [HS0]
          · iexists _; isplitr; swap; · iexact HS0
            ipureintro; intro _; exact hd0 h0
          iexists d1'; isplitr; swap; · iexact HS1
          ipureintro
          exact rows_step m c t d0 (hd0 h0) d1 d1' hd1 hd1'.1 hd1'.2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- case C: every row of the second scratch is below 400·t, the output block is stored whole
    have h2 : 25 ≤ t.val := by omega
    rw [show (dats m 0 c).leavesExact 6 t = owns (c : Thread nD τ) (ms0_6 t) fullShare ((dats m 0 c).after 6 t) from by
      unfold Dat.leavesExact; rw [idle0_6 t, decide_eq_false h1], after0_6]
    iintro ⟨⟨⟨⟨%d0, %hd0, HS0⟩, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
    have hd1' : d1 = S2 m c := funext fun y => hd1 y (by have := ValueIdx.idx2_lt0 y; omega)
    subst hd1'
    iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => absurd ((hcond0_0 t).mp h) (by omega)) (fun h => h1 ((hcond0_1 t).mp h)) ((hcond0_2 t).mpr h2) (iblk m c 0 t) (iblk m c 1 t) (iblk m c 2 t) (iblk m c 3 t) (iblk m c 4 t) (iblk m c 5 t) d0 (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro _; exact hd0 (by omega)
        iexists _; isplitr; swap; · iexact HS1
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch buffers. -/
theorem hin (c : Dev nD) : Pipeline.ΦA spec0 c ⊢ (dats m 0 c).Φ 0 := by
  rw [show (dats m 0 c).Φ 0 = PhiG m c 0 from rfl, PhiA0_eq]
  unfold PhiG
  iintro ⟨⟨⟨%d0, HS0⟩, ⟨%d1, HS1⟩⟩, Hg⟩
  isplitl [HS0 HS1]
  · isplitl [HS0]
    · iexists d0; isplitr; swap; · iexact HS0
      ipureintro; intro h; exact absurd rfl h
    iexists d1; isplitr; swap; · iexact HS1
    ipureintro; intro y hy; exact absurd hy (by omega)
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiG m c (Fin.last cfg0.N).val from rfl, PhiA0_eq]
  unfold PhiG
  iintro ⟨⟨⟨%d0, -, HS0⟩, ⟨%d1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates without a fault, each windowed array at what the
    write-backs of the proof data leave in it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdealValue.lean ====
import proofs.«107068_g31593779430026_cont_9to1_839_6_alg».proof.Proof.KernelIdealFrame
import Idealize.ShloMosaic.Lib.Pipeline.Value
import Idealize.ShloMosaic.Lib.ValueLayout
import Idealize.ShloMosaic.Lib.StableHlo.Run

set_option maxRecDepth 16384

/-
  The idealized kernel's result array as one function of what the frame names, and its blocks read off the
  argument arrays.

  From point 25 on, point t writes back output block t - 25 (rows [400·(t-25), 400·(t-25) + 400)), holding the
  third part's term of the adjacency block of point t, the second scratch's final contents S2 and b2. So the
  result array is, at row r, the third part's term at point 25 + r / 400, row r mod 400; the 25 written
  blocks tile the 10000 rows. The adjacency window's block at point t is rows [400·(t mod 25), … + 400) of
  adj; every other input window is its whole array at every point; b1 and b2 reach the kernel through a
  host reshape [n] → [1, n].
-/
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array -/

theorem out_point_lt (y : S10000x4.Idx) : 25 + (y 0).val / 400 < cfg0.N := by
  rw [show cfg0.N = 50 from N_0]; have := ValueIdx.idx2_lt0 y; omega

/-- The result array: row r is row r mod 400 of the third part's term at point 25 + r / 400. -/
def G6 (c : Dev nD) : S10000x4.Idx → Elt F .f32 := fun y =>
  out6 m c ⟨25 + (y 0).val / 400, out_point_lt y⟩ (ValueIdx.ix2 ⟨(y 0).val % 400, Nat.mod_lt _ (by omega)⟩ ⟨(y 1).val, ValueIdx.idx2_lt1 y⟩)

theorem G6_at (c : Dev nD) (t : Fin cfg0.N) (y : S10000x4.Idx) (h : 25 + (y 0).val / 400 = t.val) :
    G6 m c y = out6 m c t (ValueIdx.ix2 ⟨(y 0).val % 400, Nat.mod_lt _ (by omega)⟩ ⟨(y 1).val, ValueIdx.idx2_lt1 y⟩) :=
  congrArg (fun s => out6 m c s (ValueIdx.ix2 ⟨(y 0).val % 400, Nat.mod_lt _ (by omega)⟩ ⟨(y 1).val, ValueIdx.idx2_lt1 y⟩))
    (Fin.ext h : (⟨25 + (y 0).val / 400, out_point_lt y⟩ : Fin cfg0.N) = t)

/-- The output window's block index from point 25 on. -/
theorem idx6 : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-- What a writing point writes back is its block of the result array. -/
theorem flushed6_eq (c : Dev nD) (t : Fin cfg0.N) (hf : (cfg0.win 6).flush t = true) :
    (dats m 0 c).flushed 6 t = ((cfg0.win 6).blk t).view.read (Elt F) (G6 m c) := by
  have h25 : 25 ≤ t.val := by rw [flush0_6 t] at hf; exact of_decide_eq_true hf
  obtain ⟨e0, e1⟩ := idx6 t h25
  have hN : t.val < 50 := lt_of_lt_of_eq t.isLt (show cfg0.N = 50 from N_0)
  show (cfg0.win 6).cut (grid0.coords t) ((dats m 0 c).after 6 t) = _
  rw [after0_6]
  funext j
  show out6 m c t j = G6 m c (((cfg0.win 6).blk t).view.emb j)
  have hj0 : (j 0).val < 400 := (j 0).isLt
  have hj1 : (j 1).val < 4 := (j 1).isLt
  have v0 : ((((cfg0.win 6).blk t).view.emb j) 0).val = win0_6.index t (0 : Fin 2) * 400 + 1 * (j 0).val := rfl
  have v1 : ((((cfg0.win 6).blk t).view.emb j) 1).val = win0_6.index t (1 : Fin 2) * 4 + 1 * (j 1).val := rfl
  rw [G6_at m c t _ (by rw [v0, e0]; omega)]
  refine congrArg (out6 m c t) ?_
  funext a; apply Fin.ext
  match a with
  | ⟨0, _⟩ => show (j 0).val = ((((cfg0.win 6).blk t).view.emb j) 0).val % 400; rw [v0, e0]; omega
  | ⟨1, _⟩ => show (j 1).val = ((((cfg0.win 6).blk t).view.emb j) 1).val; rw [v1, e1]; omega

/-- An index of the result array is in point t's block iff each coordinate is in the block's range. -/
theorem mem_blk6 (t : Fin cfg0.N) (i : S10000x4.Idx) :
    i ∈ ((cfg0.win 6).blk t).view.set ↔ ∀ a : Fin 2, win0_6.index t a * S400x4.size a ≤ (i a).val ∧ (i a).val < win0_6.index t a * S400x4.size a + S400x4.size a := by
  show i ∈ ((View.whole main_v2).slice (win0_6.rect t)).set ↔ _
  rw [View.set_slice_whole, Rect.mem_set_unit]
  exact Iff.rfl

/-- The written blocks tile the rows: row r is in the block of point 25 + r / 400. -/
theorem cover6 (i : S10000x4.Idx) : ∃ t : Fin cfg0.N, (cfg0.win 6).flush t = true ∧ i ∈ ((cfg0.win 6).blk t).view.set := by
  have hi0 : (i 0).val < 10000 := ValueIdx.idx2_lt0 i
  have hi1 : (i 1).val < 4 := ValueIdx.idx2_lt1 i
  refine ⟨⟨25 + (i 0).val / 400, out_point_lt i⟩, ?_, ?_⟩
  · rw [flush0_6]; exact decide_eq_true (by show 25 ≤ 25 + (i 0).val / 400; omega)
  · obtain ⟨e0, e1⟩ := idx6 ⟨25 + (i 0).val / 400, out_point_lt i⟩ (by show 25 ≤ 25 + (i 0).val / 400; omega)
    rw [mem_blk6]
    intro a
    match a with
    | ⟨0, _⟩ =>
      show win0_6.index ⟨25 + (i 0).val / 400, out_point_lt i⟩ (0 : Fin 2) * 400 ≤ (i 0).val ∧ (i 0).val < win0_6.index ⟨25 + (i 0).val / 400, out_point_lt i⟩ (0 : Fin 2) * 400 + 400
      rw [e0]; show (25 + (i 0).val / 400 - 25) * 400 ≤ (i 0).val ∧ (i 0).val < (25 + (i 0).val / 400 - 25) * 400 + 400; omega
    | ⟨1, _⟩ =>
      show win0_6.index ⟨25 + (i 0).val / 400, out_point_lt i⟩ (1 : Fin 2) * 4 ≤ (i 1).val ∧ (i 1).val < win0_6.index ⟨25 + (i 0).val / 400, out_point_lt i⟩ (1 : Fin 2) * 4 + 4
      rw [e1]; omega

/-- The result array after the run. -/
theorem final6 (c : Dev nD) : (dats m 0 c).arrAt 6 cfg0.N = G6 m c :=
  (dats m 0 c).arrAt_eq_of_cover 6 (G6 m c) (fun t hf => flushed6_eq m c t hf) cover6

/-- The run with the result array named: it ends at G6, the arguments unchanged. -/
theorem run_value : θ_run defs (onTc (τ := τ) (main (F := F))) ⟨m, fun _ => 0, ρ⟩ (fun r => ∀ c : Dev nD,
      r.2.mem ((c.tc : Thread nD τ).loc main_v2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩) (run_main m ρ)

/-! ## The windows' blocks read off the argument arrays -/

/-- The input windows' block indices: the adjacency window moves with the second grid coordinate, the others stay. -/
theorem idx_in : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val % 25 ∧ win0_5.index t (1 : Fin 2) = 0 :=
  (by decide +kernel : ∀ t : Fin grid0.N, _)

theorem blk0 (c : Dev nD) (t : Fin cfg0.N) (y : S10000x128.Idx) : iblk m c 0 t y = (V m c main_arg0 : S10000x128.Idx → Elt F .f32) y := by
  obtain ⟨e0, e1, -⟩ := idx_in t
  show (V m c main_arg0 : S10000x128.Idx → Elt F .f32) (((cfg0.win 0).blk t).view.emb y) = _
  refine congrArg _ (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

theorem blk1 (c : Dev nD) (t : Fin cfg0.N) (y : S128x80.Idx) : iblk m c 1 t y = (V m c main_arg2 : S128x80.Idx → Elt F .f32) y := by
  obtain ⟨-, -, e0, e1, -⟩ := idx_in t
  show (V m c main_arg2 : S128x80.Idx → Elt F .f32) (((cfg0.win 1).blk t).view.emb y) = _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 80 + 1 * (y 1).val = (y 1).val; rw [e1]; omega

theorem blk2 (c : Dev nD) (t : Fin cfg0.N) (y : S1x80.Idx) : iblk m c 2 t y = (V m c main_v0 : S1x80.Idx → Elt F .f32) y := by
  obtain ⟨-, -, -, -, e0, e1, -⟩ := idx_in t
  show (V m c main_v0 : S1x80.Idx → Elt F .f32) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 80 + 1 * (y 1).val = (y 1).val; rw [e1]; omega

theorem blk3 (c : Dev nD) (t : Fin cfg0.N) (y : S80x4.Idx) : iblk m c 3 t y = (V m c main_arg4 : S80x4.Idx → Elt F .f32) y := by
  obtain ⟨-, -, -, -, -, -, e0, e1, -⟩ := idx_in t
  show (V m c main_arg4 : S80x4.Idx → Elt F .f32) (((cfg0.win 3).blk t).view.emb y) = _
  refine congrArg _ (funext fun a => Fin.ext ?_)
  match a with
  | ⟨0, _⟩ => show win0_3.index t (0 : Fin 2) * 80 + 1 * (y 0).val = (y 0).val; rw [e0]; omega
  | ⟨1, _⟩ => show win0_3.index t (1 : Fin 2) * 4 + 1 * (y 1).val = (y 1).val; rw [e1]; omega

theorem blk4 (c : Dev nD) (t : Fin cfg0.N) (y : S1x4.Idx) : iblk m c 4 t y = (V m c main_v1 : S1x4.Idx → Elt F .f32) y := by
  obtain ⟨-, -, -, -, -, -, -, -, e0, e1, -⟩ := idx_in t
  show (V m c main_v1 : S1x4.Idx → Elt F .f32) (((cfg0.win 4).blk t).view.emb y) = _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 4 + 1 * (y 1).val = (y 1).val; rw [e1]; omega

/-- Row p of the adjacency block at point t is row 400·(t mod 25) + p of adj. -/
theorem blk5 (c : Dev nD) (t : Fin cfg0.N) (p : Fin 400) (q : Fin 10000) (r : Fin 10000) (hr : r.val = 400 * (t.val % 25) + p.val) :
    iblk m c 5 t (ValueIdx.ix2 p q) = (V m c main_arg1 : S10000x10000.Idx → Elt F .f32) (ValueIdx.ix2 r q) := by
  obtain ⟨-, -, -, -, -, -, -, -, -, -, e0, e1⟩ := idx_in t
  show (V m c main_arg1 : S10000x10000.Idx → Elt F .f32) (((cfg0.win 5).blk t).view.emb (ValueIdx.ix2 p q)) = _
  refine congrArg _ (funext fun a => Fin.ext ?_)
  match a with
  | ⟨0, _⟩ => show win0_5.index t (0 : Fin 2) * 400 + 1 * p.val = r.val; rw [e0, hr]; omega
  | ⟨1, _⟩ => show win0_5.index t (1 : Fin 2) * 10000 + 1 * q.val = q.val; rw [e1]; omega

/-- The host reshapes b1 to one row before the region. -/
theorem V_b1 (c : Dev nD) (u : Fin 1) (k : Fin 80) :
    (V m c main_v0 : S1x80.Idx → Elt F .f32) (ValueIdx.ix2 u k) = (m ((c : Thread nD τ).loc main_arg3) : S80.Idx → Elt F .f32) (ValueIdx.ix1 k) := by
  have e : (V m c main_v0 : S1x80.Idx → Elt F .f32) = shapeCast S1x80 (m ((c : Thread nD τ).loc main_arg3) : S80.Idx → Elt F .f32) shapeCasts_S80_S1x80 := by
    dsimp only [Gen.V, Gen.hostOps0]; after_results; rfl
  rw [e]; exact ValueIdx.shapeCast_a_1a_apply _ _ u k

/-- The host reshapes b2 to one row before the region. -/
theorem V_b2 (c : Dev nD) (u : Fin 1) (j : Fin 4) :
    (V m c main_v1 : S1x4.Idx → Elt F .f32) (ValueIdx.ix2 u j) = (m ((c : Thread nD τ).loc main_arg5) : S4.Idx → Elt F .f32) (ValueIdx.ix1 j) := by
  have e : (V m c main_v1 : S1x4.Idx → Elt F .f32) = shapeCast S1x4 (m ((c : Thread nD τ).loc main_arg5) : S4.Idx → Elt F .f32) shapeCasts_S4_S1x4 := by
    dsimp only [Gen.V, Gen.hostOps0]; after_results; rfl
  rw [e]; exact ValueIdx.shapeCast_a_1a_apply _ _ u j

end Cert.KernelIdeal.Body

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelIdealPay.lean ====
/-
  The kernel's three stored terms, each read at one index, on the extended reals.

  With every change of format the identity there, and a reshape to the same shape the identity:
    the first term is the product x·W1, at (r, k) the sum over a of x[r,a]·W1[a,k];
    the second is max (A·S + b) 0 times W2, where A is a block of 400 rows of the adjacency matrix, S the stored
      support, b the 1×80 bias row repeated over the block's rows: at (p, j) the sum over k of
      max (∑ q, A[p,q]·S[q,k] + b[0,k]) 0 · W2[k,j];
    the third is A·S2 + b with b the 1×4 bias row repeated: at (p, j) the sum over q of A[p,q]·S2[q,j], plus b[0,j].
  Each product accumulates into the zero splat, so it is the plain sum over the shared coordinate. The zero under
  the maximum stays the float word.
-/
import proofs.«107068_g31593779430026_cont_9to1_839_6_alg».proof.Proof.Gen.KernelIdeal.Skeleton
import proofs.«107068_g31593779430026_cont_9to1_839_6_alg».proof.Proof.LibPlainDot
import Idealize.ShloMosaic.Lib.Pipeline.Value

noncomputable section

open scoped BigOperators

namespace Cert.KernelIdeal.PayValue

open Cert.KernelIdeal Cert.KernelIdeal.Gen Idealize.ShloMosaic Idealize.ShloMosaic.ValueIdx

/-- The first stored term, x·W1 narrowed to the shorter format (no change of value on the extended reals), at (r, k). -/
theorem pay1_at (x : Vec Ideal S10000x128 .f32) (W1 : Vec Ideal S128x80 .f32) (r : Fin 10000) (k : Fin 80) :
    k0_pay1 (F := Ideal) x W1 (ix2 r k) = ∑ a : Fin 128, x (ix2 r a) * W1 (ix2 a k) := by
  unfold k0_pay1
  simp only [shapeCast_self]
  exact PlainDot.matmul_zero_apply (φ₁ := .f32) (φ₂ := .f32) 10000 128 80 none x W1 r k

/-- A 1×80 row repeated over 400 rows, at (p, k), is the row's entry k. -/
theorem row80_at (b : Vec Ideal S1x80 .f32) (p : Fin 400) (k : Fin 80) :
    broadcastTo S400x80 b broadcasts_S1x80_S400x80 (ix2 p k) = b (ix2 (0 : Fin 1) k) :=
  broadcastTo_apply b broadcasts_S1x80_S400x80 (ix2 p k) (ix2 (0 : Fin 1) k) (fun a => match a with
    | ⟨0, _⟩ => by show (0 : Nat) = if (1 : Nat) = 1 then 0 else p.val; rw [if_pos rfl]
    | ⟨1, _⟩ => by show k.val = if (80 : Nat) = 1 then 0 else k.val; rw [if_neg (by decide)])

/-- A 1×4 row repeated over 400 rows, at (p, j), is the row's entry j. -/
theorem row4_at (b : Vec Ideal S1x4 .f32) (p : Fin 400) (j : Fin 4) :
    broadcastTo S400x4 b broadcasts_S1x4_S400x4 (ix2 p j) = b (ix2 (0 : Fin 1) j) :=
  broadcastTo_apply b broadcasts_S1x4_S400x4 (ix2 p j) (ix2 (0 : Fin 1) j) (fun a => match a with
    | ⟨0, _⟩ => by show (0 : Nat) = if (1 : Nat) = 1 then 0 else p.val; rw [if_pos rfl]
    | ⟨1, _⟩ => by show j.val = if (4 : Nat) = 1 then 0 else j.val; rw [if_neg (by decide)])

/-- The second stored term at (p, j): the row block A times the stored support S plus the bias row, the maximum
    with zero, then the product with W2 — the sum over k of the hidden entry (p, k) times W2[k, j]. -/
theorem pay2_at (A : Vec Ideal S400x10000 .f32) (S : Vec Ideal S10000x80 .bf16) (b : Vec Ideal S1x80 .f32)
    (W2 : Vec Ideal S80x4 .f32) (p : Fin 400) (j : Fin 4) :
    k0_pay2 (F := Ideal) A S b W2 (ix2 p j)
      = ∑ k : Fin 80, max ((∑ q : Fin 10000, A (ix2 p q) * S (ix2 q k)) + b (ix2 (0 : Fin 1) k)) (Ideal.ofBits .f32 0x00000000#32)
          * W2 (ix2 k j) := by
  unfold k0_pay2
  simp only [shapeCast_self]
  refine (PlainDot.matmul_zero_apply (φ₁ := .f32) (φ₂ := .f32) 400 80 4 none _ W2 p j).trans ?_
  refine Finset.sum_congr rfl fun k _ => ?_
  refine congrArg (· * W2 (ix2 k j)) ?_
  rw [maximumf_apply, addf_apply, row80_at, broadcast_apply, Ideal.ofBits_def]
  refine congrArg (fun t => max (t + b (ix2 (0 : Fin 1) k)) (Ideal.ofBits .f32 0x00000000#32)) ?_
  exact PlainDot.matmul_zero_apply (φ₁ := .bf16) (φ₂ := .bf16) 400 10000 80 none
    (truncf (F := Ideal) .bf16 A bitsLt_bf16_f32) S p k

/-- The third stored term at (p, j): the row block A times the stored support S2, plus the bias row's entry j. -/
theorem pay3_at (A : Vec Ideal S400x10000 .f32) (S2 : Vec Ideal S10000x4 .bf16) (b : Vec Ideal S1x4 .f32)
    (p : Fin 400) (j : Fin 4) :
    k0_pay3 (F := Ideal) A S2 b (ix2 p j) = (∑ q : Fin 10000, A (ix2 p q) * S2 (ix2 q j)) + b (ix2 (0 : Fin 1) j) := by
  unfold k0_pay3
  simp only [shapeCast_self]
  rw [addf_apply, row4_at]
  refine congrArg (· + b (ix2 (0 : Fin 1) j)) ?_
  exact PlainDot.matmul_zero_apply (φ₁ := .bf16) (φ₂ := .bf16) 400 10000 4 none
    (truncf (F := Ideal) .bf16 A bitsLt_bf16_f32) S2 p j

end Cert.KernelIdeal.PayValue

end
-- ==== Proof.Spec.lean ====
/-
  The two-layer graph convolution as one function of its argument arrays, on the extended reals.

  With x : 10000×128, adj : 10000×10000, W1 : 128×80, b1 : 80, W2 : 80×4, b2 : 4,
    sup1[r,k] = ∑ a, x[r,a] · W1[a,k]
    hid[r,k]  = max (∑ q, adj[r,q] · sup1[q,k] + b1[k]) 0
    sup2[r,j] = ∑ k, hid[r,k] · W2[k,j]
    out[r,j]  = ∑ q, adj[r,q] · sup2[q,j] + b2[j].
  Both programs compute exactly these sums in this grouping, so no law of the extended reals beyond
  reading each product at an index is needed to join them. The zero under the max is kept as the
  float word both programs print.
-/
import Idealize.ShloMosaic.Lib.ValueIdx
import Idealize.ShloMosaic.PureOps.Ideal.Laws

noncomputable section

open scoped BigOperators

namespace Cert.Spec

open Idealize.ShloMosaic Idealize.ShloMosaic.ValueIdx

variable (x : (⟨2, ![10000, 128]⟩ : Shape).Idx → EReal) (adj : (⟨2, ![10000, 10000]⟩ : Shape).Idx → EReal)
  (W1 : (⟨2, ![128, 80]⟩ : Shape).Idx → EReal) (b1 : (⟨1, ![80]⟩ : Shape).Idx → EReal)
  (W2 : (⟨2, ![80, 4]⟩ : Shape).Idx → EReal) (b2 : (⟨1, ![4]⟩ : Shape).Idx → EReal)

/-- The first layer's support x·W1 at row r, column k. -/
def sup1 (r : Fin 10000) (k : Fin 80) : EReal := ∑ a : Fin 128, x (ix2 r a) * W1 (ix2 a k)

/-- The hidden layer relu(adj·sup1 + b1) at row r, column k. -/
def hid (r : Fin 10000) (k : Fin 80) : EReal :=
  max ((∑ q : Fin 10000, adj (ix2 r q) * sup1 x W1 q k) + b1 (ix1 k)) (Ideal.ofBits .f32 0x00000000#32)

/-- The second layer's support hid·W2 at row r, column j. -/
def sup2 (r : Fin 10000) (j : Fin 4) : EReal := ∑ k : Fin 80, hid x adj W1 b1 r k * W2 (ix2 k j)

/-- The embedding adj·sup2 + b2 at row r, column j. -/
def out (r : Fin 10000) (j : Fin 4) : EReal := (∑ q : Fin 10000, adj (ix2 r q) * sup2 x adj W1 b1 W2 q j) + b2 (ix1 j)

/-- The whole result array. -/
def G : (⟨2, ![10000, 4]⟩ : Shape).Idx → EReal := fun i => out x adj W1 b1 W2 b2 (i 0) (i 1)

end Cert.Spec

end
-- ==== Proof.KernelIdealSpec.lean ====
import proofs.«107068_g31593779430026_cont_9to1_839_6_alg».proof.Proof.KernelIdealValue
import proofs.«107068_g31593779430026_cont_9to1_839_6_alg».proof.Proof.KernelIdealPay
import proofs.«107068_g31593779430026_cont_9to1_839_6_alg».proof.Proof.Spec

set_option maxRecDepth 16384

/-
  On the extended reals the idealized kernel's result array is the specification's function of the six
  argument arrays.

  Entry (q, k) of the first scratch's final contents is ∑ a, x[q,a]·W1[a,k]. Row q of the second scratch's
  final contents was stored at point q / 400 from row q mod 400 of that point's adjacency block, which is row
  q of adj: its entry (q, j) is ∑ k, max(∑ q', adj[q,q']·S1[q',k] + b1[k], 0)·W2[k,j]. Row r of the result was
  stored at point 25 + r / 400, whose adjacency block is again rows [400·(r / 400), …) of adj: entry (r, j)
  is ∑ q, adj[r,q]·S2[q,j] + b2[j]. These are the specification's sums, term by term.
-/
noncomputable section

open scoped BigOperators

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ)

/-- The six argument arrays as launched, as functions to the extended reals. -/
abbrev aX (c : Dev nD) : S10000x128.Idx → EReal := m ((c : Thread nD τ).loc main_arg0)
abbrev aAdj (c : Dev nD) : S10000x10000.Idx → EReal := m ((c : Thread nD τ).loc main_arg1)
abbrev aW1 (c : Dev nD) : S128x80.Idx → EReal := m ((c : Thread nD τ).loc main_arg2)
abbrev aB1 (c : Dev nD) : S80.Idx → EReal := m ((c : Thread nD τ).loc main_arg3)
abbrev aW2 (c : Dev nD) : S80x4.Idx → EReal := m ((c : Thread nD τ).loc main_arg4)
abbrev aB2 (c : Dev nD) : S4.Idx → EReal := m ((c : Thread nD τ).loc main_arg5)

/-- The first scratch's final contents at (q, k): the first layer's support. -/
theorem S1_at (c : Dev nD) (q : Fin 10000) (k : Fin 80) :
    S1 m c (ix2 q k) = Cert.Spec.sup1 (aX m c) (aW1 m c) q k := by
  unfold S1
  refine (PayValue.pay1_at (iblk m c 0 t0) (iblk m c 1 t0) q k).trans ?_
  unfold Cert.Spec.sup1
  refine Finset.sum_congr rfl fun a _ => ?_
  rw [blk0 m c t0 (ix2 q a), blk1 m c t0 (ix2 a k), V_main_arg0, V_main_arg2]

/-- The second scratch's final contents at (q, j): the second layer's support. -/
theorem S2_at_spec (c : Dev nD) (q : Fin 10000) (j : Fin 4) :
    S2 m c (ix2 q j) = Cert.Spec.sup2 (aX m c) (aAdj m c) (aW1 m c) (aB1 m c) (aW2 m c) q j := by
  have hq : q.val < 10000 := q.isLt
  have hs : q.val / 400 < cfg0.N := by rw [show cfg0.N = 50 from N_0]; omega
  show k0_pay2 (iblk m c 5 ⟨q.val / 400, hs⟩) (S1 m c) (iblk m c 2 ⟨q.val / 400, hs⟩) (iblk m c 3 ⟨q.val / 400, hs⟩)
      (ix2 (⟨q.val % 400, Nat.mod_lt _ (by omega)⟩ : Fin 400) j) = _
  refine (PayValue.pay2_at (iblk m c 5 ⟨q.val / 400, hs⟩) (S1 m c) (iblk m c 2 ⟨q.val / 400, hs⟩) (iblk m c 3 ⟨q.val / 400, hs⟩) ⟨q.val % 400, Nat.mod_lt _ (by omega)⟩ j).trans ?_
  unfold Cert.Spec.sup2 Cert.Spec.hid
  refine Finset.sum_congr rfl fun k _ => ?_
  have h3 : iblk m c 3 ⟨q.val / 400, hs⟩ (ix2 k j) = aW2 m c (ix2 k j) := by
    rw [blk3 m c _ (ix2 k j), V_main_arg4]
  have h2 : iblk m c 2 ⟨q.val / 400, hs⟩ (ix2 (0 : Fin 1) k) = aB1 m c (ix1 k) := by
    rw [blk2 m c _ (ix2 (0 : Fin 1) k)]; exact V_b1 m c 0 k
  have h5 : ∀ q' : Fin 10000, iblk m c 5 ⟨q.val / 400, hs⟩ (ix2 (⟨q.val % 400, Nat.mod_lt _ (by omega)⟩ : Fin 400) q') = aAdj m c (ix2 q q') := fun q' => by
    rw [blk5 m c _ _ q' q (by show q.val = 400 * (q.val / 400 % 25) + q.val % 400; omega), V_main_arg1]
  rw [h3, h2]
  congr 2
  exact congrArg (· + aB1 m c (ix1 k)) (Finset.sum_congr rfl fun q' _ => by rw [h5 q', S1_at])

/-- The result array at (r, j): the embedding. -/
theorem G6_at_spec (c : Dev nD) (r : Fin 10000) (j : Fin 4) :
    G6 m c (ix2 r j) = Cert.Spec.out (aX m c) (aAdj m c) (aW1 m c) (aB1 m c) (aW2 m c) (aB2 m c) r j := by
  have hr : r.val < 10000 := r.isLt
  have hs : 25 + r.val / 400 < cfg0.N := by rw [show cfg0.N = 50 from N_0]; omega
  show k0_pay3 (iblk m c 5 ⟨25 + r.val / 400, hs⟩) (S2 m c) (iblk m c 4 ⟨25 + r.val / 400, hs⟩)
      (ix2 (⟨r.val % 400, Nat.mod_lt _ (by omega)⟩ : Fin 400) j) = _
  refine (PayValue.pay3_at (iblk m c 5 ⟨25 + r.val / 400, hs⟩) (S2 m c) (iblk m c 4 ⟨25 + r.val / 400, hs⟩) ⟨r.val % 400, Nat.mod_lt _ (by omega)⟩ j).trans ?_
  unfold Cert.Spec.out
  have h4 : iblk m c 4 ⟨25 + r.val / 400, hs⟩ (ix2 (0 : Fin 1) j) = aB2 m c (ix1 j) := by
    rw [blk4 m c _ (ix2 (0 : Fin 1) j)]; exact V_b2 m c 0 j
  have h5 : ∀ q : Fin 10000, iblk m c 5 ⟨25 + r.val / 400, hs⟩ (ix2 (⟨r.val % 400, Nat.mod_lt _ (by omega)⟩ : Fin 400) q) = aAdj m c (ix2 r q) := fun q => by
    rw [blk5 m c _ _ q r (by show r.val = 400 * ((25 + r.val / 400) % 25) + r.val % 400; omega), V_main_arg1]
  rw [h4]
  exact congrArg (· + aB2 m c (ix1 j)) (Finset.sum_congr rfl fun q _ => by rw [h5 q, S2_at_spec])

/-- The idealized kernel's result array is the specification's. -/
theorem value_eq (c : Dev nD) : G6 m c = Cert.Spec.G (aX m c) (aAdj m c) (aW1 m c) (aB1 m c) (aW2 m c) (aB2 m c) := by
  funext y
  obtain ⟨r, j, rfl⟩ : ∃ (r : Fin 10000) (j : Fin 4), y = ix2 r j := ⟨y 0, y 1, eq_ix2 y⟩
  exact G6_at_spec m c r j

end Cert.KernelIdeal.Body

end
-- ==== Proof.RefValue.lean ====
/-
  The reference's result array is the specification's function of the six argument arrays.

  Read one operation at a time, the reference computes
    v0 = x·W1,  v1 = adj·v0,  v4 = v1 + b1 (b1 repeated along the rows),  v6 = max v4 0,
    v7 = v6·W2,  v8 = adj·v7,  v11 = v8 + b2 (b2 repeated along the rows),
  each product an M×K by K×N one with no batch axis. At an index (r, k) each stage is the
  specification's sum of the same grouping, so the two agree entry by entry: a product is read at
  its index as the sum over the shared coordinate, a repeated vector at its column, and nothing of
  the extended reals' arithmetic is used. The zero under the maximum stays the float word.
-/
import proofs.«107068_g31593779430026_cont_9to1_839_6_alg».proof.Proof.Gen.ReferenceIdeal.Read
import proofs.«107068_g31593779430026_cont_9to1_839_6_alg».proof.Proof.Spec
import proofs.«107068_g31593779430026_cont_9to1_839_6_alg».proof.Proof.LibPlainDot

noncomputable section

open scoped BigOperators

namespace Cert.ReferenceIdeal.RefValue

open Cert.ReferenceIdeal Cert.ReferenceIdeal.Gen Cert.ReferenceIdeal.Read Idealize.ShloMosaic Idealize.ShloMosaic.ValueIdx

variable (x : FVec Ideal S10000x128 .f32) (adj : FVec Ideal S10000x10000 .f32) (W1 : FVec Ideal S128x80 .f32)
  (b1 : FVec Ideal S80 .f32) (W2 : FVec Ideal S80x4 .f32) (b2 : FVec Ideal S4 .f32)

/-- The first product x·W1 at (r, k) is the first layer's support. -/
theorem v0_at (r : Fin 10000) (k : Fin 80) :
    val_main_v0 (F := Ideal) x W1 (ix2 r k) = Cert.Spec.sup1 x W1 r k := by
  unfold val_main_v0 Cert.Spec.sup1
  exact PlainDot.dotGeneral_apply 10000 128 80 none .single x W1 r k

/-- The second product adj·(x·W1) at (r, k): the sum over the nodes q of adj[r,q] times the support at (q, k). -/
theorem v1_at (r : Fin 10000) (k : Fin 80) :
    val_main_v1 (F := Ideal) x adj W1 (ix2 r k) = ∑ q : Fin 10000, adj (ix2 r q) * Cert.Spec.sup1 x W1 q k := by
  unfold val_main_v1
  refine (PlainDot.dotGeneral_apply 10000 10000 80 none .single adj (val_main_v0 (F := Ideal) x W1) r k).trans ?_
  exact Finset.sum_congr rfl fun q _ => by rw [v0_at]

/-- b1 repeated along the rows, at (r, k), is b1[k]. -/
theorem v3_at (r : Fin 10000) (k : Fin 80) : val_main_v3 (F := Ideal) b1 (ix2 r k) = b1 (ix1 k) := by
  rw [val_main_v3_apply, val_main_v2_apply]
  exact congrArg b1 (funext fun d => Fin.ext (by match d with | ⟨0, _⟩ => rfl))

/-- The zero splat, at any index, is the float word of zero. -/
theorem v5_at (i : S10000x80.Idx) : val_main_v5 (F := Ideal) i = Ideal.ofBits .f32 0x00000000#32 := by
  rw [val_main_v5_apply, val_main_cst_apply]
  exact Ideal.ofBits_def _

/-- The hidden layer max (adj·(x·W1) + b1) 0 at (r, k). -/
theorem v6_at (r : Fin 10000) (k : Fin 80) :
    val_main_v6 (F := Ideal) x adj W1 b1 (ix2 r k) = Cert.Spec.hid x adj W1 b1 r k := by
  rw [val_main_v6_apply, val_main_v4_apply, v1_at, v3_at, v5_at]
  unfold Cert.Spec.hid
  rfl

/-- The third product hid·W2 at (r, j) is the second layer's support. -/
theorem v7_at (r : Fin 10000) (j : Fin 4) :
    val_main_v7 (F := Ideal) x adj W1 b1 W2 (ix2 r j) = Cert.Spec.sup2 x adj W1 b1 W2 r j := by
  unfold val_main_v7 Cert.Spec.sup2
  refine (PlainDot.dotGeneral_apply 10000 80 4 none .single (val_main_v6 (F := Ideal) x adj W1 b1) W2 r j).trans ?_
  exact Finset.sum_congr rfl fun k _ => by rw [v6_at]

/-- The fourth product adj·(hid·W2) at (r, j): the sum over the nodes q of adj[r,q] times the support at (q, j). -/
theorem v8_at (r : Fin 10000) (j : Fin 4) :
    val_main_v8 (F := Ideal) x adj W1 b1 W2 (ix2 r j)
      = ∑ q : Fin 10000, adj (ix2 r q) * Cert.Spec.sup2 x adj W1 b1 W2 q j := by
  unfold val_main_v8
  refine (PlainDot.dotGeneral_apply 10000 10000 4 none .single adj (val_main_v7 (F := Ideal) x adj W1 b1 W2) r j).trans ?_
  exact Finset.sum_congr rfl fun q _ => by rw [v7_at]

/-- b2 repeated along the rows, at (r, j), is b2[j]. -/
theorem v10_at (r : Fin 10000) (j : Fin 4) : val_main_v10 (F := Ideal) b2 (ix2 r j) = b2 (ix1 j) := by
  rw [val_main_v10_apply, val_main_v9_apply]
  exact congrArg b2 (funext fun d => Fin.ext (by match d with | ⟨0, _⟩ => rfl))

/-- The embedding adj·(hid·W2) + b2 at (r, j). -/
theorem v11_at (r : Fin 10000) (j : Fin 4) :
    val_main_v11 (F := Ideal) x adj W1 b1 W2 b2 (ix2 r j) = Cert.Spec.out x adj W1 b1 W2 b2 r j := by
  rw [val_main_v11_apply, v8_at, v10_at]
  unfold Cert.Spec.out
  rfl

/-- The last stage of the reference, as an array, is the specification's result array. -/
theorem val_eq : val_main_v11 (F := Ideal) x adj W1 b1 W2 b2 = Cert.Spec.G x adj W1 b1 W2 b2 := by
  funext i
  obtain ⟨r, j, rfl⟩ : ∃ r j, i = ix2 r j := ⟨i 0, i 1, eq_ix2 i⟩
  exact v11_at x adj W1 b1 W2 b2 r j

/-- The term the reference's run states for its result, of the six argument arrays, is the specification's
    result array. -/
theorem result_eq :
    addf (F := Ideal) (Host.dotGeneral dot_S10000x10000_S10000x4_S10000x4_1_0_0_1_n_n none adj (Host.dotGeneral dot_S10000x80_S80x4_S10000x4_1_0_0_1_n_n none (maximumf (addf (Host.dotGeneral dot_S10000x10000_S10000x80_S10000x80_1_0_0_1_n_n none adj (Host.dotGeneral dot_S10000x128_S128x80_S10000x80_1_0_0_1_n_n none x W1)) (broadcastInDim S10000x80 ![0, 1] bcast_S1x80_S10000x80_0_1 (broadcastInDim S1x80 ![1] bcast_S80_S1x80_1 b1))) (broadcastInDim S10000x80 ![] bcast_S_S10000x80 (constant S_ .f32 0x00000000#32))) W2)) (broadcastInDim S10000x4 ![0, 1] bcast_S1x4_S10000x4_0_1 (broadcastInDim S1x4 ![1] bcast_S4_S1x4_1 b2))
      = Cert.Spec.G x adj W1 b1 W2 b2 :=
  (val_main_v11_eq (F := Ideal) x adj W1 b1 W2 b2).trans (val_eq x adj W1 b1 W2 b2)

end Cert.ReferenceIdeal.RefValue

end
-- ==== Proof.lean ====
/-
  A two-layer graph convolution, out = adj·(relu(adj·(x·W1) + b1)·W2) + b2, computed by one kernel on a
  2 × 25 grid against the plain composition of four matrix products.

  The kernel keeps x·W1 and relu(adj·(x·W1) + b1)·W2 in two scratch buffers: the first is stored at the first
  grid point, the second 400 rows at a time over the first 25 points, and the last 25 points store the result,
  400 rows each, from the whole second scratch. The frame of the kernel (at both float instances) follows the
  two scratch buffers point by point; on the extended reals every stored term is the corresponding sum of the
  reference, in the same grouping, so the two results agree entry by entry and no law of the extended reals
  beyond reading a matrix product at an index is used. The idealization rewrote no operation, so the
  statement relating the kernel to its idealization is the trivial one.
-/
import proofs.«107068_g31593779430026_cont_9to1_839_6_alg».proof.Defs
import proofs.«107068_g31593779430026_cont_9to1_839_6_alg».proof.Proof.Gen.Kernel
import proofs.«107068_g31593779430026_cont_9to1_839_6_alg».proof.Proof.Gen.KernelIdeal
import proofs.«107068_g31593779430026_cont_9to1_839_6_alg».proof.Proof.Gen.ReferenceIdeal
import proofs.«107068_g31593779430026_cont_9to1_839_6_alg».proof.Proof.Gen.Pre_finite_inputs
import proofs.«107068_g31593779430026_cont_9to1_839_6_alg».proof.Proof.KernelFrame
import proofs.«107068_g31593779430026_cont_9to1_839_6_alg».proof.Proof.KernelIdealSpec
import proofs.«107068_g31593779430026_cont_9to1_839_6_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Body.frame m ρ

/-- So does the idealized kernel. -/
theorem frame_kernel_ideal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the (agreeing) arguments. -/
theorem algebraic : Cert.algebraic_KernelIdeal_ReferenceIdeal := by
  intro m ρ m' ρ' _ hagree
  refine ⟨fun c => Cert.Spec.G (Cert.KernelIdeal.Body.aX m c) (Cert.KernelIdeal.Body.aAdj m c) (Cert.KernelIdeal.Body.aW1 m c)
    (Cert.KernelIdeal.Body.aB1 m c) (Cert.KernelIdeal.Body.aW2 m c) (Cert.KernelIdeal.Body.aB2 m c), ?_, ?_⟩
  · exact (θ_run Cert.KernelIdeal.defs _ _).mono
      (fun _ h c => ⟨(h c).1.trans (Cert.KernelIdeal.Body.value_eq m c), (h c).2⟩) (Cert.KernelIdeal.Body.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
